-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S16384 : Shape := ⟨1, ![16384]⟩
abbrev S4096x128 : Shape := ⟨2, ![4096, 128]⟩
abbrev S16384x128 : Shape := ⟨2, ![16384, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_

variable [Facts]

def fn {F : FTy → Type} [FloatOps F] (main_arg0 : IVec S4096 32) (main_arg1 : IVec S16384 32) (main_arg2 : FVec F S4096x128 .f32) (main_arg3 : FVec F S16384x128 .f32) : IVec S_ 1 :=
  let main_v0 : FVec F S4096x128 .f32 := Host.absf main_arg2
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S16384x128 .f32 := Host.absf main_arg3
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  main_v8
-- ==== Kernel.lean ====
abbrev S4096 : Shape := ⟨1, ![4096]⟩
abbrev S16384 : Shape := ⟨1, ![16384]⟩
abbrev S4096x128 : Shape := ⟨2, ![4096, 128]⟩
abbrev S16384x128 : Shape := ⟨2, ![16384, 128]⟩
abbrev S4096x1 : Shape := ⟨2, ![4096, 1]⟩
abbrev S1x16384 : Shape := ⟨2, ![1, 16384]⟩
abbrev S_ : Shape := ⟨0, ![]⟩
abbrev S4096x16384 : Shape := ⟨2, ![4096, 16384]⟩
abbrev S1024x1 : Shape := ⟨2, ![1024, 1]⟩
abbrev S1x1024 : Shape := ⟨2, ![1, 1024]⟩
abbrev S1024x128 : Shape := ⟨2, ![1024, 128]⟩
abbrev S1024x1024 : Shape := ⟨2, ![1024, 1024]⟩

abbrev nBuf : Space → Nat
  | .hbm => 30
  | .vmem => 16
  | .smem => 0
  | _ => 0

abbrev bufTy : (tb : Table) → Fin (tcTables nBuf tb) → BufTy
  | .hbm, ⟨0, _⟩ => ⟨S4096, .i32⟩
  | .hbm, ⟨1, _⟩ => ⟨S16384, .i32⟩
  | .hbm, ⟨2, _⟩ => ⟨S4096x128, .f32⟩
  | .hbm, ⟨3, _⟩ => ⟨S16384x128, .f32⟩
  | .hbm, ⟨4, _⟩ => ⟨S4096x1, .i32⟩
  | .hbm, ⟨5, _⟩ => ⟨S1x16384, .i32⟩
  | .hbm, ⟨6, _⟩ => ⟨S4096x128, .f32⟩
  | .hbm, ⟨7, _⟩ => ⟨S_, .f32⟩
  | .hbm, ⟨8, _⟩ => ⟨S4096, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S16384x128, .f32⟩
  | .hbm, ⟨14, _⟩ => ⟨S_, .f32⟩
  | .hbm, ⟨15, _⟩ => ⟨S16384, .f32⟩
  | .hbm, ⟨16, _⟩ => ⟨S16384, .f32⟩
  | .hbm, ⟨17, _⟩ => ⟨S_, .f32⟩
  | .hbm, ⟨18, _⟩ => ⟨S16384, .f32⟩
  | .hbm, ⟨19, _⟩ => ⟨S16384, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S16384, .f32⟩
  | .hbm, ⟨26, _⟩ => ⟨S16384, .f32⟩
  | .hbm, ⟨27, _⟩ => ⟨S1x16384, .f32⟩
  | .hbm, ⟨28, _⟩ => ⟨S4096x16384, .i32⟩
  | .hbm, ⟨29, _⟩ => ⟨S4096x16384, .f32⟩
  | .local _ .vmem, ⟨0, _⟩ => ⟨S1024x1, .i32⟩
  | .local _ .vmem, ⟨1, _⟩ => ⟨S1024x1, .i32⟩
  | .local _ .vmem, ⟨2, _⟩ => ⟨S1x1024, .i32⟩
  | .local _ .vmem, ⟨3, _⟩ => ⟨S1x1024, .i32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1, .f32⟩
  | .local _ .vmem, ⟨9, _⟩ => ⟨S1024x1, .f32⟩
  | .local _ .vmem, ⟨10, _⟩ => ⟨S1x1024, .f32⟩
  | .local _ .vmem, ⟨11, _⟩ => ⟨S1x1024, .f32⟩
  | .local _ .vmem, ⟨12, _⟩ => ⟨S1024x1024, .i32⟩
  | .local _ .vmem, ⟨13, _⟩ => ⟨S1024x1024, .i32⟩
  | .local _ .vmem, ⟨14, _⟩ => ⟨S1024x1024, .f32⟩
  | .local _ .vmem, ⟨15, _⟩ => ⟨S1024x1024, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14_0 : Ref sig .tc := ⟨.hbm, 28, rfl⟩
abbrev main_v14_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S4096_S4096x1 : S4096.ShapeCasts S4096x1
  shapeCasts_S16384_S1x16384 : S16384.ShapeCasts S1x16384
  reducesTo_S4096x128_S4096_d1 : S4096x128.ReducesTo [1] S4096
  h_S_ : 0 < S_.numel
  bcast_S_S4096 : S_.BroadcastsInDim S4096 (![] : Fin 0 → Fin S4096.rank)
  reducesTo_S16384x128_S16384_d1 : S16384x128.ReducesTo [1] S16384
  bcast_S_S16384 : S_.BroadcastsInDim S16384 (![] : Fin 0 → Fin S16384.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  natLt_1_32 : 1 < 32
  inb_S1024x1024_S1024x1024_0_0 : ∀ a, (![0, 0] : Fin 2 → Nat) a + S1024x1024.size a ≤ S1024x1024.size a
  h_S1024x1024 : 0 < S1024x1024.numel
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S4096x1.size a
  hwx0_0 : ∀ i : grid0.Coords, EltTy.bits .i32 = 32 ∨ (Rect.block (s := S4096x1) S1024x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x16384.size a
  hwx0_1 : ∀ i : grid0.Coords, EltTy.bits .i32 = 32 ∨ (Rect.block (s := S1x16384) S1x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S4096x128.size a
  hwx0_2 : ∀ i : grid0.Coords, EltTy.bits .f32 = 32 ∨ (Rect.block (s := S4096x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S16384x128.size a
  hwx0_3 : ∀ i : grid0.Coords, EltTy.bits .f32 = 32 ∨ (Rect.block (s := S16384x128) S1024x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x16384.size a
  hwx0_5 : ∀ i : grid0.Coords, EltTy.bits .f32 = 32 ∨ (Rect.block (s := S1x16384) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S4096x16384.size a
  hwx0_6 : ∀ i : grid0.Coords, EltTy.bits .i32 = 32 ∨ (Rect.block (s := S4096x16384) S1024x1024.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S4096x16384.size a
  hwx0_7 : ∀ i : grid0.Coords, EltTy.bits .f32 = 32 ∨ (Rect.block (s := S4096x16384) S1024x1024.size (cc0_transform_7 i) (hinb0_7 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_v0) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14_0) S1024x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v14_1) S1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096 : Shape := ⟨1, ![4096]⟩
abbrev S16384 : Shape := ⟨1, ![16384]⟩
abbrev S4096x128 : Shape := ⟨2, ![4096, 128]⟩
abbrev S16384x128 : Shape := ⟨2, ![16384, 128]⟩
abbrev S4096x1 : Shape := ⟨2, ![4096, 1]⟩
abbrev S1x16384 : Shape := ⟨2, ![1, 16384]⟩
abbrev S4096x16384 : Shape := ⟨2, ![4096, 16384]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096, .i32⟩
  | .hbm, ⟨1, _⟩ => ⟨S16384, .i32⟩
  | .hbm, ⟨2, _⟩ => ⟨S4096x128, .f32⟩
  | .hbm, ⟨3, _⟩ => ⟨S16384x128, .f32⟩
  | .hbm, ⟨4, _⟩ => ⟨S4096x1, .i32⟩
  | .hbm, ⟨5, _⟩ => ⟨S1x16384, .i32⟩
  | .hbm, ⟨6, _⟩ => ⟨S4096x16384, .i32⟩
  | .hbm, ⟨7, _⟩ => ⟨S4096x16384, .i32⟩
  | .hbm, ⟨8, _⟩ => ⟨S4096x16384, .i1⟩
  | .hbm, ⟨9, _⟩ => ⟨S4096x16384, .i32⟩
  | .hbm, ⟨10, _⟩ => ⟨S4096x128, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S16384x128, .f32⟩
  | .hbm, ⟨18, _⟩ => ⟨S_, .f32⟩
  | .hbm, ⟨19, _⟩ => ⟨S16384, .f32⟩
  | .hbm, ⟨20, _⟩ => ⟨S16384, .f32⟩
  | .hbm, ⟨21, _⟩ => ⟨S_, .f32⟩
  | .hbm, ⟨22, _⟩ => ⟨S16384, .f32⟩
  | .hbm, ⟨23, _⟩ => ⟨S16384, .f32⟩
  | .hbm, ⟨24, _⟩ => ⟨S4096x16384, .f32⟩
  | .hbm, ⟨25, _⟩ => ⟨S4096x1, .f32⟩
  | .hbm, ⟨26, _⟩ => ⟨S1x16384, .f32⟩
  | .hbm, ⟨27, _⟩ => ⟨S4096x16384, .f32⟩
  | .hbm, ⟨28, _⟩ => ⟨S4096x16384, .f32⟩
  | .hbm, ⟨29, _⟩ => ⟨S4096x16384, .f32⟩
  | .hbm, ⟨30, _⟩ => ⟨S4096x16384, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_call1_v0 : Ref sig .tc := ⟨.hbm, 17, rfl⟩
abbrev main_call1_cst : Ref sig .tc := ⟨.hbm, 18, rfl⟩
abbrev main_call1_v1 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S16384_S1x16384_1 : S16384.BroadcastsInDim S1x16384 (![1] : Fin 1 → Fin S1x16384.rank)
  bcast_S4096x1_S4096x16384_0_1 : S4096x1.BroadcastsInDim S4096x16384 (![0, 1] : Fin 2 → Fin S4096x16384.rank)
  bcast_S1x16384_S4096x16384_0_1 : S1x16384.BroadcastsInDim S4096x16384 (![0, 1] : Fin 2 → Fin S4096x16384.rank)
  natLt_1_32 : 1 < 32
  reducesTo_S4096x128_S4096_d1 : S4096x128.ReducesTo [1] S4096
  h_S_ : 0 < S_.numel
  bcast_S_S4096 : S_.BroadcastsInDim S4096 (![] : Fin 0 → Fin S4096.rank)
  reducesTo_S16384x128_S16384_d1 : S16384x128.ReducesTo [1] S16384
  bcast_S_S16384 : S_.BroadcastsInDim S16384 (![] : Fin 0 → Fin S16384.rank)
  dot_S4096x128_S16384x128_S4096x16384_1_1_0_0_n_n_wf : DotDims.WF S4096x128 S16384x128 S4096x16384 [1] [1] [0] [0] [] []

variable [Facts₀]

def dot_S4096x128_S16384x128_S4096x16384_1_1_0_0_n_n : DotDims S4096x128 S16384x128 S4096x16384 where
  lhsContracting := [1]
  rhsContracting := [1]
  lhsNonContracting := [0]
  rhsNonContracting := [0]
  lhsBatch := []
  rhsBatch := []
  wf := dot_S4096x128_S16384x128_S4096x16384_1_1_0_0_n_n_wf

class Facts : Prop extends Facts₀ where

variable [Facts]
-- ==== Proof.Cosine.lean ====
/-
  The two results as functions of the argument arrays, index by index, over the extended reals.

  A row `u : Fin 128 → EReal` has the clipped length `clipNorm u = max (√(0 + Σₖ uₖ·uₖ)) ε`, with `ε` the
  binary32 word nearest `1e-8`. For a row `u` of the first matrix and a row `v` of the second, the cosine
  similarity is written in two arrangements:
    · `cosQuot u v = (Σₖ uₖ·vₖ) / (clipNorm u · clipNorm v)`           — one quotient by the product of the lengths;
    · `cosProd u v = (Σₖ uₖ·vₖ) · (1 / clipNorm u) · (1 / clipNorm v)` — the product with the two reciprocals.
  The integer result compares word `r` of the first vector with word `c` of the second: `1` where equal, else `0`.
-/
import Idealize.ShloMosaic.PureOps.Ideal
import Idealize.ShloMosaic.PureOps.Ideal.Laws
import Idealize.ShloMosaic.Lib.ValueIdx

noncomputable section

namespace Cert.Hint

open Idealize.ShloMosaic

/-! ## One row against one row -/

/-- The sum of the squares of a row, started from the zero word as the sum is. -/
def sumSq (u : Fin 128 → EReal) : EReal := Ideal.ofBits .f32 0x00000000#32 + ∑ k : Fin 128, u k * u k

/-- The length of a row, clipped below at `ε`. -/
def clipNorm (u : Fin 128 → EReal) : EReal := max (Ideal.sqrt (sumSq u)) (Ideal.ofBits .f32 0x322BCC77#32)

/-- The inner product of two rows. -/
def dot (u v : Fin 128 → EReal) : EReal := ∑ k : Fin 128, u k * v k

/-- The reciprocal as the quotient of the word of `1.0`. -/
def recip (a : EReal) : EReal := Ideal.div (Ideal.ofBits .f32 0x3F800000#32) a

/-- Cosine similarity as ONE quotient by the product of the clipped lengths. -/
def cosQuot (u v : Fin 128 → EReal) : EReal := Ideal.div (dot u v) (clipNorm u * clipNorm v)

/-- Cosine similarity as the inner product times the two reciprocal lengths, in that order. -/
def cosProd (u v : Fin 128 → EReal) : EReal := dot u v * recip (clipNorm u) * recip (clipNorm v)

/-! ## The arrays -/

abbrev SQ : Shape := ⟨2, ![4096, 128]⟩
abbrev SP : Shape := ⟨2, ![16384, 128]⟩
abbrev SO : Shape := ⟨2, ![4096, 16384]⟩
abbrev Sq : Shape := ⟨1, ![4096]⟩
abbrev Sp : Shape := ⟨1, ![16384]⟩

/-- Entry `k` of row number `r` of the first matrix. -/
abbrev rowQn (r : Nat) (hr : r < 4096) (k : Fin 128) : SQ.Idx := fun a => match a with
  | ⟨0, _⟩ => ⟨r, hr⟩
  | ⟨1, _⟩ => ⟨k.val, k.isLt⟩

/-- Entry `k` of row number `r` of the second matrix. -/
abbrev rowPn (r : Nat) (hr : r < 16384) (k : Fin 128) : SP.Idx := fun a => match a with
  | ⟨0, _⟩ => ⟨r, hr⟩
  | ⟨1, _⟩ => ⟨k.val, k.isLt⟩

/-- Word number `r` of the first vector. -/
abbrev atQn (r : Nat) (hr : r < 4096) : Sq.Idx := fun a => match a with
  | ⟨0, _⟩ => ⟨r, hr⟩

/-- Word number `r` of the second vector. -/
abbrev atPn (r : Nat) (hr : r < 16384) : Sp.Idx := fun a => match a with
  | ⟨0, _⟩ => ⟨r, hr⟩

/-- Entry `k` of the row of the first matrix that result index `i` reads: row `i 0`. -/
abbrev rowQ (i : SO.Idx) (k : Fin 128) : SQ.Idx := rowQn (i 0).val (i 0).isLt k

/-- Entry `k` of the row of the second matrix that result index `i` reads: row `i 1`. -/
abbrev rowP (i : SO.Idx) (k : Fin 128) : SP.Idx := rowPn (i 1).val (i 1).isLt k

/-- The word of the first vector that result index `i` reads. -/
abbrev atQ (i : SO.Idx) : Sq.Idx := atQn (i 0).val (i 0).isLt

/-- The word of the second vector that result index `i` reads. -/
abbrev atP (i : SO.Idx) : Sp.Idx := atPn (i 1).val (i 1).isLt

/-- The cosine matrix as quotients. -/
def cosQuotMat (x : SQ.Idx → EReal) (y : SP.Idx → EReal) : SO.Idx → EReal :=
  fun i => cosQuot (fun k => x (rowQ i k)) (fun k => y (rowP i k))

/-- The cosine matrix as products with reciprocals. -/
def cosProdMat (x : SQ.Idx → EReal) (y : SP.Idx → EReal) : SO.Idx → EReal :=
  fun i => cosProd (fun k => x (rowQ i k)) (fun k => y (rowP i k))

/-- The match matrix: `1` where the two words are equal, else `0`, as 32-bit words. -/
def eqMat (q : Sq.Idx → BitVec 32) (p : Sp.Idx → BitVec 32) : SO.Idx → BitVec 32 :=
  fun i => (IntOp.cmpi .eq (q (atQ i)) (p (atP i))).setWidth 32

end Cert.Hint

end
-- ==== Proof.CosineLaw.lean ====
/-
  The cosine of two rows, arranged as one quotient and as a product with two reciprocals, is the same extended
  real whenever both rows consist of real numbers.

  For a row `u` of reals `rₖ`, the sum `0 + Σₖ uₖ·uₖ` is the real `Σₖ rₖ²`, which is nonnegative, so its root is
  the real `√(Σₖ rₖ²)`; the clipping word denotes a positive real `ε`; hence the clipped length is the real
  `max (√(Σₖ rₖ²)) ε ≥ ε > 0`. With both clipped lengths positive reals `a`, `b`, division by `a`, by `b` and by
  `a·b` is multiplication by the real reciprocal, and `d · (1·(1/a)) · (1·(1/b)) = d · (1/(a·b))` for every extended
  real `d`, by associativity and `(1/a)·(1/b) = 1/(a·b)` in the reals.
-/
import proofs.«126310_j49684181680758_1_alg».proof.Proof.Cosine

noncomputable section

namespace Cert.Hint

open Idealize.ShloMosaic

/-! ## The two words -/

/-- The word `0x3F800000` (sign 0, exponent field 127, fraction 0) denotes `2²³ · 2⁻²³ = 1`. -/
theorem ofBits_one_f32 : Ideal.ofBits .f32 0x3F800000#32 = 1 := by
  simp [Ideal.ofBits, Ideal.ieee]
  rw [← EReal.coe_mul, ← EReal.coe_one]
  congr 1
  norm_num

/-- The clipping word `0x322BCC77` (sign 0, exponent field 100, fraction `0x2BCC77`) denotes the positive real
    `(2²³ + 0x2BCC77) · 2⁻⁵⁰`: a positive integer times a power of two. -/
theorem ofBits_eps_pos : ∃ e : ℝ, 0 < e ∧ Ideal.ofBits .f32 0x322BCC77#32 = (e : EReal) := by
  simp [Ideal.ofBits, Ideal.ieee]
  refine ⟨_, ?_, (EReal.coe_mul _ _).symm⟩
  positivity

/-! ## A row of reals -/

/-- The coercion of the reals into the extended reals carries a finite sum to the sum of the coercions. -/
theorem coe_sum (s : Finset (Fin 128)) (f : Fin 128 → ℝ) :
    ((∑ k ∈ s, f k : ℝ) : EReal) = ∑ k ∈ s, (f k : EReal) := by
  induction s using Finset.induction_on with
  | empty => simp
  | insert a s ha ih => rw [Finset.sum_insert ha, Finset.sum_insert ha, EReal.coe_add, ih]

/-- The sum of the squares of a row of reals `rₖ` is the real `Σₖ rₖ·rₖ`. -/
theorem sumSq_real (u : Fin 128 → EReal) (r : Fin 128 → ℝ) (hr : ∀ k, u k = (r k : EReal)) :
    sumSq u = ((∑ k, r k * r k : ℝ) : EReal) := by
  unfold sumSq
  rw [Ideal.ofBits_zero_f32, zero_add, coe_sum]
  refine Finset.sum_congr rfl fun k _ => ?_
  rw [hr k, EReal.coe_mul]

/-- a row of real numbers has a clipped length that is a POSITIVE real -/
theorem clipNorm_pos_real (u : Fin 128 → EReal) (hu : ∀ k, ∃ r : ℝ, u k = (r : EReal)) :
    ∃ a : ℝ, 0 < a ∧ clipNorm u = (a : EReal) := by
  choose r hr using hu
  obtain ⟨e, he, hee⟩ := ofBits_eps_pos
  -- a sum of squares of reals is nonnegative, so its root is a real
  have h0 : 0 ≤ ∑ k, r k * r k := Finset.sum_nonneg fun k _ => mul_self_nonneg _
  -- the larger of the root and `ε` is at least `ε`, which is positive
  refine ⟨max (Real.sqrt (∑ k, r k * r k)) e, lt_max_of_lt_right he, ?_⟩
  unfold clipNorm
  rw [sumSq_real u r hr, Ideal.sqrt_coe, if_neg (not_lt.2 h0), hee]
  -- the coercion is monotone, so it carries the larger of two reals to the larger of their images
  exact (EReal.coe_strictMono.monotone.map_max).symm

/-! ## The law -/

/-- THE LAW: for rows of real numbers the product with the two reciprocal lengths is the one quotient -/
theorem cosProd_eq_cosQuot (u v : Fin 128 → EReal) (hu : ∀ k, ∃ r : ℝ, u k = (r : EReal))
    (hv : ∀ k, ∃ r : ℝ, v k = (r : EReal)) : cosProd u v = cosQuot u v := by
  obtain ⟨a, ha, hau⟩ := clipNorm_pos_real u hu
  obtain ⟨b, hb, hbv⟩ := clipNorm_pos_real v hv
  unfold cosProd cosQuot recip
  rw [hau, hbv, ofBits_one_f32, ← EReal.coe_mul a b]
  -- the inner product enters only as some extended real `d`
  generalize dot u v = d
  -- division by a nonzero real is multiplication by its real reciprocal
  rw [Ideal.div_coe ha.ne', Ideal.div_coe hb.ne', Ideal.div_coe (mul_pos ha hb).ne', one_mul, one_mul,
    mul_assoc, ← EReal.coe_mul]
  -- `(1/a)·(1/b) = 1/(a·b)` in the reals
  congr 2
  field_simp

end Cert.Hint

end
-- ==== Proof.Finite.lean ====
/-
  Where the precondition's word is all ones, every entry of both float arrays is a real number.

  The precondition computes, over the extended reals, the conjunction of two conjunctions over all entries:
  `|xᵢ| < +∞` for every entry of the first array and `|yⱼ| < +∞` for every entry of the second, with
  `|z| = max z (−z)` and `+∞` the value of the word `0x7F800000`. If the conjunction is `1` then each conjunct is,
  hence each single comparison is. An extended real is `⊥`, a real, or `⊤`; for `⊥` and for `⊤` the absolute value
  is `max ⊥ ⊤ = ⊤`, which is not below `⊤`, so an entry that passes the comparison is a real.
-/
import proofs.«126310_j49684181680758_1_alg».proof.Pre_finite_inputs
import proofs.«126310_j49684181680758_1_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Hint

open Idealize.ShloMosaic Cert.Pre_finite_inputs

/-- A shape of rank zero has exactly one index: there is no axis to give a coordinate on. -/
instance subsingleton_S_Idx : Subsingleton S_.Idx := ⟨fun a b => funext fun d => d.elim0⟩

/-- The word `0x7F800000` (sign 0, exponent field all ones, fraction 0) denotes `+∞`. -/
theorem ofBits_inf_f32 : Ideal.ofBits .f32 0x7F800000#32 = ⊤ := by simp [Ideal.ofBits, Ideal.ieee]

/-- An extended real whose absolute value `max z (−z)` is strictly below `⊤` is a real: at `z = ⊥` and at
    `z = ⊤` the absolute value is `⊤` itself. -/
theorem real_of_abs_lt_top (z : EReal) (h : Ideal.cmp .olt (max z (-z)) ⊤ = 1#1) : ∃ r : ℝ, z = (r : EReal) := by
  induction z using EReal.rec with
  | bot => simp [Ideal.cmp] at h
  | coe r => exact ⟨r, rfl⟩
  | top => simp [Ideal.cmp] at h

/-- where the precondition's word is all ones, every entry of both float arrays is a real number -/
theorem real_of_finite (a0 : IVec S4096 32) (a1 : IVec S16384 32) (x : FVec Ideal S4096x128 .f32) (y : FVec Ideal S16384x128 .f32)
    (h : Cert.Pre_finite_inputs.fn (F := Ideal) a0 a1 x y = fun _ => 1#1) :
    (∀ i : S4096x128.Idx, ∃ r : ℝ, x i = (r : EReal)) ∧ (∀ j : S16384x128.Idx, ∃ r : ℝ, y j = (r : EReal)) := by
  -- the result has one index; read the word there
  have h0 := congrFun h ValueIdx.ix0
  dsimp only [Cert.Pre_finite_inputs.fn] at h0
  -- a conjunction of two one-bit words is `1` only if both are
  obtain ⟨hx, hy⟩ := IntOp.andi_eq_one.1 h0
  refine ⟨fun i => ?_, fun j => ?_⟩
  · -- a conjunction over all entries is `1` only if the comparison at entry `i` is; that comparison is
    -- `max (x i) (−(x i)) < +∞`
    have e : Ideal.cmp .olt (max (x i) (-(x i))) (Ideal.ofBits .f32 0x7F800000#32) = 1#1 :=
      Host.reduce_andi_all _ _ _ _ _ hx i
    rw [ofBits_inf_f32] at e
    exact real_of_abs_lt_top _ e
  · -- the same at entry `j` of the second array
    have e : Ideal.cmp .olt (max (y j) (-(y j))) (Ideal.ofBits .f32 0x7F800000#32) = 1#1 :=
      Host.reduce_andi_all _ _ _ _ _ hy j
    rw [ofBits_inf_f32] at e
    exact real_of_abs_lt_top _ e

end Cert.Hint

end
-- ==== Proof.RefValue.lean ====
/-
  The reference's two results are the specification's matrices.

  Read one operation at a time, entry `i = (r, c)` of the reference's integer result compares word `r` of the first
  vector with word `c` of the second through two broadcasts each, and entry `i` of its float result is the inner
  product of row `r` of the first matrix with row `c` of the second, divided by the product of the two rows' clipped
  lengths — each length broadcast along the other axis before the product. Only the indices have to be identified: every
  composite of broadcast index maps reads row `i 0` of the first operand or row `i 1` of the second.
-/
import proofs.«126310_j49684181680758_1_alg».proof.Proof.Gen.ReferenceIdeal.Read
import proofs.«126310_j49684181680758_1_alg».proof.Proof.Cosine

noncomputable section

namespace Cert.Hint

open Cert.ReferenceIdeal Cert.ReferenceIdeal.Read Idealize.ShloMosaic

/-- The reference's integer result is the match matrix. -/
theorem ref_eqMat (q : (⟨S4096, .i32⟩ : BufTy).Contents (Elt Ideal)) (p : (⟨S16384, .i32⟩ : BufTy).Contents (Elt Ideal)) :
    val_main_v5 (F := Ideal) q p = eqMat q p := by
  funext i
  rw [val_main_v5_apply, val_main_v4_apply, val_main_v2_apply, val_main_v3_apply, val_main_v0_apply, val_main_v1_apply]
  have eq : idx_main_v0 (idx_main_v2 i) = atQ i := funext fun a => Fin.ext (by match a with | ⟨0, _⟩ => rfl)
  have ep : idx_main_v1 (idx_main_v3 i) = atP i := funext fun a => Fin.ext (by match a with | ⟨0, _⟩ => rfl)
  rw [eq, ep]
  rfl

/-- Entry `r` of the reference's vector of clipped lengths of the first matrix's rows. -/
theorem ref_clipQ (x : (⟨S4096x128, .f32⟩ : BufTy).Contents (Elt Ideal)) (r : S4096.Idx) :
    val_main_v8 (F := Ideal) x r = clipNorm (fun k => x (rowQn (r 0).val (r 0).isLt k)) := by
  have e : ∀ k, idx_main_call0_v1 r k = rowQn (r 0).val (r 0).isLt k := fun k =>
    funext fun a => Fin.ext (by match a with | ⟨0, _⟩ => rfl | ⟨1, _⟩ => rfl)
  rw [val_main_v8_apply, val_main_v6_apply, val_main_v7_apply, val_main_call0_v1_apply, val_main_cst_apply, val_main_call0_cst_apply]
  simp only [val_main_call0_v0_apply, e]
  rfl

/-- Entry `r` of the reference's vector of clipped lengths of the second matrix's rows. -/
theorem ref_clipP (y : (⟨S16384x128, .f32⟩ : BufTy).Contents (Elt Ideal)) (r : S16384.Idx) :
    val_main_v11 (F := Ideal) y r = clipNorm (fun k => y (rowPn (r 0).val (r 0).isLt k)) := by
  have e : ∀ k, idx_main_call1_v1 r k = rowPn (r 0).val (r 0).isLt k := fun k =>
    funext fun a => Fin.ext (by match a with | ⟨0, _⟩ => rfl | ⟨1, _⟩ => rfl)
  rw [val_main_v11_apply, val_main_v9_apply, val_main_v10_apply, val_main_call1_v1_apply, val_main_cst_0_apply, val_main_call1_cst_apply]
  simp only [val_main_call1_v0_apply, e]
  rfl

/-- The reference's float result is the cosine matrix in its quotient form. -/
theorem ref_cosQuotMat (x : (⟨S4096x128, .f32⟩ : BufTy).Contents (Elt Ideal)) (y : (⟨S16384x128, .f32⟩ : BufTy).Contents (Elt Ideal)) :
    val_main_v18 (F := Ideal) x y = cosQuotMat x y := by
  funext i
  have e1 : ∀ k, idx_main_call0_v1 (idx_main_v13 (idx_main_v15 i)) k = rowQ i k := fun k =>
    funext fun a => Fin.ext (by match a with | ⟨0, _⟩ => rfl | ⟨1, _⟩ => rfl)
  have e2 : ∀ k, idx_main_call1_v1 (idx_main_v14 (idx_main_v16 i)) k = rowP i k := fun k =>
    funext fun a => Fin.ext (by match a with | ⟨0, _⟩ => rfl | ⟨1, _⟩ => rfl)
  have e3 : ∀ k, lidx_main_v12 i k = rowQ i k := fun k =>
    funext fun a => Fin.ext (by match a with | ⟨0, _⟩ => rfl | ⟨1, _⟩ => rfl)
  have e4 : ∀ k, ridx_main_v12 i k = rowP i k := fun k =>
    funext fun a => Fin.ext (by match a with | ⟨0, _⟩ => rfl | ⟨1, _⟩ => rfl)
  rw [val_main_v18_apply, val_main_v12_apply, val_main_v17_apply, val_main_v15_apply, val_main_v16_apply,
    val_main_v13_apply, val_main_v14_apply, val_main_v8_apply, val_main_v11_apply, val_main_v6_apply, val_main_v9_apply,
    val_main_v7_apply, val_main_v10_apply, val_main_call0_v1_apply, val_main_call1_v1_apply, val_main_cst_apply,
    val_main_cst_0_apply, val_main_call0_cst_apply, val_main_call1_cst_apply]
  simp only [val_main_call0_v0_apply, val_main_call1_v0_apply, e1, e2, e3, e4]
  rfl

end Cert.Hint

end
-- ==== Proof.HostPrefix.lean ====
/-
  What the kernel's region finds in the four arrays that host operations write before it.

  The two integer vectors arrive recast, [4096] as a column [4096,1] and [16384] as a row [1,16384]: entry (r, 0) of the
  column is word `r`, entry (0, c) of the row is word `c`. The two float arrays are the reciprocal clipped lengths of
  the matrices' rows, recast the same way: the host divides a vector of ones by `max (√(Σₖ xₖ²)) ε` row by row. That
  vector of clipped lengths is the very chain of operations the reference applies to the same matrix, so it is carried
  here as that one function of the matrix and read at an index by the reference's own entry lemma.
-/
import proofs.«126310_j49684181680758_1_alg».proof.Proof.Gen.KernelIdeal.Frame
import proofs.«126310_j49684181680758_1_alg».proof.Proof.RefValue
import Idealize.ShloMosaic.Lib.StableHlo.Run
import Idealize.ShloMosaic.Lib.Pipeline.Value

noncomputable section

namespace Cert.Hint

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-! ## The arrays as terms of the arguments -/

/-- The first integer vector, recast as a column. -/
theorem V_words_col (c : Dev nD) :
    (V m c main_v0 : S4096x1.Idx → BitVec 32) = shapeCast S4096x1 (m ((c : Thread nD τ).loc main_arg0)) Facts₀.shapeCasts_S4096_S4096x1 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

/-- The second integer vector, recast as a row. -/
theorem V_words_row (c : Dev nD) :
    (V m c main_v1 : S1x16384.Idx → BitVec 32) = shapeCast S1x16384 (m ((c : Thread nD τ).loc main_arg1)) Facts₀.shapeCasts_S16384_S1x16384 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

/-- The reciprocal clipped lengths of the first matrix's rows, as a column. -/
theorem V_recip_col (c : Dev nD) :
    (V m c main_v10 : S4096x1.Idx → EReal) = shapeCast S4096x1
      (Host.divf (F := Ideal) (broadcastInDim S4096 ![] Facts₀.bcast_S_S4096 (constant (F := Ideal) S_ .f32 0x3F800000#32))
        (Cert.ReferenceIdeal.Read.val_main_v8 (F := Ideal) (m ((c : Thread nD τ).loc main_arg2))))
      Facts₀.shapeCasts_S4096_S4096x1 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

/-- The reciprocal clipped lengths of the second matrix's rows, as a row. -/
theorem V_recip_row (c : Dev nD) :
    (V m c main_v13 : S1x16384.Idx → EReal) = shapeCast S1x16384
      (Host.divf (F := Ideal) (broadcastInDim S16384 ![] Facts₀.bcast_S_S16384 (constant (F := Ideal) S_ .f32 0x3F800000#32))
        (Cert.ReferenceIdeal.Read.val_main_v11 (F := Ideal) (m ((c : Thread nD τ).loc main_arg3))))
      Facts₀.shapeCasts_S16384_S1x16384 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

/-! ## The arrays at an index -/

/-- The host's quotient of two arrays at an index is the quotient of the entries. -/
theorem hostQuot_apply {s : Shape} (a b : FVec Ideal s .f32) (i : s.Idx) :
    Host.divf (F := Ideal) a b i = Ideal.div (a i) (b i) := rfl

/-- Entry (r, 0) of the column of words is word `r` of the first vector. -/
theorem words_col_apply (c : Dev nD) (i : S4096x1.Idx) :
    (V m c main_v0 : S4096x1.Idx → BitVec 32) i = m ((c : Thread nD τ).loc main_arg0) (atQn (i 0).val (i 0).isLt) := by
  refine (congrFun (V_words_col m c) i).trans ?_
  refine shapeCast_apply _ _ i (atQn (i 0).val (i 0).isLt) ?_
  rw [Shape.rowMajor_val_one, Shape.rowMajor_val_two]
  have h1 : (i 1).val < 1 := (i 1).isLt
  show (i 0).val = (i 0).val * 1 + (i 1).val
  omega

/-- Entry (0, c) of the row of words is word `c` of the second vector. -/
theorem words_row_apply (c : Dev nD) (i : S1x16384.Idx) :
    (V m c main_v1 : S1x16384.Idx → BitVec 32) i = m ((c : Thread nD τ).loc main_arg1) (atPn (i 1).val (i 1).isLt) := by
  refine (congrFun (V_words_row m c) i).trans ?_
  refine shapeCast_apply _ _ i (atPn (i 1).val (i 1).isLt) ?_
  rw [Shape.rowMajor_val_one, Shape.rowMajor_val_two]
  have h0 : (i 0).val < 1 := (i 0).isLt
  show (i 1).val = (i 0).val * 16384 + (i 1).val
  omega

/-- Entry (r, 0) of the column of reciprocals is one over the clipped length of row `r` of the first matrix. -/
theorem recip_col_apply (c : Dev nD) (i : S4096x1.Idx) :
    (V m c main_v10 : S4096x1.Idx → EReal) i
      = recip (clipNorm (fun k => m ((c : Thread nD τ).loc main_arg2) (rowQn (i 0).val (i 0).isLt k))) := by
  refine (congrFun (V_recip_col m c) i).trans ?_
  refine (shapeCast_apply _ _ i (atQn (i 0).val (i 0).isLt) ?_).trans ?_
  · rw [Shape.rowMajor_val_one, Shape.rowMajor_val_two]
    have h1 : (i 1).val < 1 := (i 1).isLt
    show (i 0).val = (i 0).val * 1 + (i 1).val
    omega
  · rw [hostQuot_apply, ref_clipQ, broadcastInDim_apply _ Facts₀.bcast_S_S4096 _ _ (fun a => a.elim0) (fun a => a.elim0)]
    rfl

/-- Entry (0, c) of the row of reciprocals is one over the clipped length of row `c` of the second matrix. -/
theorem recip_row_apply (c : Dev nD) (i : S1x16384.Idx) :
    (V m c main_v13 : S1x16384.Idx → EReal) i
      = recip (clipNorm (fun k => m ((c : Thread nD τ).loc main_arg3) (rowPn (i 1).val (i 1).isLt k))) := by
  refine (congrFun (V_recip_row m c) i).trans ?_
  refine (shapeCast_apply _ _ i (atPn (i 1).val (i 1).isLt) ?_).trans ?_
  · rw [Shape.rowMajor_val_one, Shape.rowMajor_val_two]
    have h0 : (i 0).val < 1 := (i 0).isLt
    show (i 1).val = (i 0).val * 16384 + (i 1).val
    omega
  · rw [hostQuot_apply, ref_clipP, broadcastInDim_apply _ Facts₀.bcast_S_S16384 _ _ (fun a => a.elim0) (fun a => a.elim0)]
    rfl

end Cert.Hint

end
-- ==== Proof.EqBlocks.lean ====
/-
  The integer result array after the run is the match matrix.

  Point (i, j) of the 4 × 16 grid reads the 1024 words of the first vector from 1024·i on (as a [1024,1] block of the
  column they were recast to) and the 1024 words of the second from 1024·j on (as a [1,1024] block of the row), and
  writes the 1024 × 1024 block at (1024·i, 1024·j): block entry (p, q) compares word 1024·i + p with word 1024·j + q,
  the two words its result index (1024·i + p, 1024·j + q) names. The 64 blocks tile the array.
-/
import proofs.«126310_j49684181680758_1_alg».proof.Proof.Gen.KernelIdeal.Value
import proofs.«126310_j49684181680758_1_alg».proof.Proof.HostPrefix

noncomputable section

namespace Cert.Hint

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem origin_zero' : (![0, 0] : Fin 2 → Nat) = fun _ => 0 := funext fun a => by fin_cases a <;> rfl

/-- How the two word windows' blocks move with the integer result's block over the grid (decided point by point). -/
theorem eq_idx_facts : ∀ t : Fin cfg0.N,
    win0_0.index t (0 : Fin 2) = win0_6.index t (0 : Fin 2) ∧ win0_0.index t (1 : Fin 2) = 0
    ∧ win0_1.index t (0 : Fin 2) = 0 ∧ win0_1.index t (1 : Fin 2) = win0_6.index t (1 : Fin 2)
    ∧ win0_6.index t (0 : Fin 2) ≤ 3 ∧ win0_6.index t (1 : Fin 2) ≤ 15 :=
  (by decide +kernel : ∀ t : Fin grid0.N, _)

/-- Every block of the result is some point's. -/
theorem eq_idx_onto : ∀ (q0 : Fin 4) (q1 : Fin 16), ∃ t : Fin cfg0.N, win0_6.index t = ![q0.val, q1.val] :=
  (by decide +kernel : ∀ (q0 : Fin 4) (q1 : Fin 16), ∃ t : Fin grid0.N, win0_6.index t = ![q0.val, q1.val])

/-- The word of the column block that block index `j` reads is the first vector's word the result index names. -/
theorem read_wordQ (c : Dev nD) (t : Fin cfg0.N) (j : S1024x1024.Idx) :
    iblk m c 0 t (Value.ix6_0 j) = m ((c : Thread nD τ).loc main_arg0) (atQ (((cfg0.win 6).blk t).view.emb j)) := by
  show (V m c main_v0 : S4096x1.Idx → BitVec 32) (((cfg0.win 0).blk t).view.emb (Value.ix6_0 j)) = _
  rw [words_col_apply]
  obtain ⟨e0, e1, -, -, -, -⟩ := eq_idx_facts t
  refine congrArg _ (funext fun a => Fin.ext ?_)
  match a with
  | ⟨0, _⟩ => show win0_0.index t (0 : Fin 2) * 1024 + 1 * (j 0).val = win0_6.index t (0 : Fin 2) * 1024 + 1 * (j 0).val; omega

/-- The word of the row block that block index `j` reads is the second vector's word the result index names. -/
theorem read_wordP (c : Dev nD) (t : Fin cfg0.N) (j : S1024x1024.Idx) :
    iblk m c 1 t (Value.ix6_1 j) = m ((c : Thread nD τ).loc main_arg1) (atP (((cfg0.win 6).blk t).view.emb j)) := by
  show (V m c main_v1 : S1x16384.Idx → BitVec 32) (((cfg0.win 1).blk t).view.emb (Value.ix6_1 j)) = _
  rw [words_row_apply]
  obtain ⟨-, -, e2, e3, -, -⟩ := eq_idx_facts t
  refine congrArg _ (funext fun a => Fin.ext ?_)
  match a with
  | ⟨0, _⟩ => show win0_1.index t (1 : Fin 2) * 1024 + 1 * (j 1).val = win0_6.index t (1 : Fin 2) * 1024 + 1 * (j 1).val; omega

/-- WHAT POINT `t` WRITES BACK is block `t` of the match matrix of the two argument vectors. -/
theorem eq_flushed_eq (c : Dev nD) (t : Fin cfg0.N) :
    (dats m 0 c).flushed 6 t = ((cfg0.win 6).blk t).view.read (Elt Ideal)
      (eqMat (m ((c : Thread nD τ).loc main_arg0)) (m ((c : Thread nD τ).loc main_arg1))) := by
  rw [Value.flushed6]
  unfold out0_6
  simp only [View.ld_unit_zero (S := S1024x1) origin_zero', View.ld_unit_zero (S := S1x1024) origin_zero']
  funext j
  show View.canon (Val := Elt Ideal) (s := S1024x1024) (e := .i32) [⟨r0_2, k0_pay1 (F := Ideal) (iblk m c 0 t) (iblk m c 1 t)⟩] j
      = (IntOp.cmpi .eq (m ((c : Thread nD τ).loc main_arg0) (atQ (((cfg0.win 6).blk t).view.emb j)))
          (m ((c : Thread nD τ).loc main_arg1) (atP (((cfg0.win 6).blk t).view.emb j)))).setWidth 32
  refine (Value.canon6_eq (F := Ideal) (iblk m c 0 t) (iblk m c 1 t) j).trans ?_
  show (IntOp.cmpi .eq (iblk m c 0 t (Value.ix6_0 j)) (iblk m c 1 t (Value.ix6_1 j))).setWidth 32 = _
  rw [read_wordQ m c t j, read_wordP m c t j]

/-- An index of the result is in point `t`'s block iff each coordinate is in the block's range on its axis. -/
theorem eq_mem_blk (t : Fin cfg0.N) (i : S4096x16384.Idx) :
    i ∈ ((cfg0.win 6).blk t).view.set ↔ ∀ a : Fin 2, win0_6.index t a * S1024x1024.size a ≤ (i a).val
      ∧ (i a).val < win0_6.index t a * S1024x1024.size a + S1024x1024.size a := by
  show i ∈ ((View.whole main_v14_0).slice (win0_6.rect t)).set ↔ _
  rw [View.set_slice_whole, Rect.mem_set_unit]
  exact Iff.rfl

/-- Every index of the result lies in the block of the point (r / 1024, c / 1024), which writes back. -/
theorem eq_cover (i : S4096x16384.Idx) :
    ∃ t : Fin cfg0.N, (cfg0.win 6).flush t = true ∧ i ∈ ((cfg0.win 6).blk t).view.set := by
  have hi0 : (i 0).val < 4096 := (i 0).isLt
  have hi1 : (i 1).val < 16384 := (i 1).isLt
  obtain ⟨t, ht⟩ := eq_idx_onto ⟨(i 0).val / 1024, by omega⟩ ⟨(i 1).val / 1024, by omega⟩
  have q0 : win0_6.index t (0 : Fin 2) = (i 0).val / 1024 := congrFun ht 0
  have q1 : win0_6.index t (1 : Fin 2) = (i 1).val / 1024 := congrFun ht 1
  refine ⟨t, flush0_6 t, ?_⟩
  rw [eq_mem_blk]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 1024 ≤ (i 1).val ∧ (i 1).val < win0_6.index t (1 : Fin 2) * 1024 + 1024; omega

/-- THE INTEGER RESULT ARRAY after the run: the match matrix of the two argument vectors. -/
theorem eq_final (c : Dev nD) :
    (dats m 0 c).arrAt 6 cfg0.N
      = eqMat (m ((c : Thread nD τ).loc main_arg0)) (m ((c : Thread nD τ).loc main_arg1)) :=
  (dats m 0 c).arrAt_eq_of_cover 6 _ (fun t _ => eq_flushed_eq m c t) eq_cover

end Cert.Hint

end
-- ==== Proof.Payload.lean ====
/-
  The body's float payload at an index of the 1024 × 1024 block.

  The body multiplies a [1024,128] block `a` of the first matrix with a [1024,128] block `b` of the second, contracting
  the second axis of both (so entry (p, q) is Σₖ a(p,k)·b(q,k); the casts to the narrow format are the identity on
  extended reals and the accumulator is the zero splat), then scales row `p` by entry (p,0) of a [1024,1] column and
  column `q` by entry (0,q) of a [1,1024] row, each broadcast over the block:
      payload (p, q) = (Σₖ a(p,k)·b(q,k)) · col(p,0) · row(0,q).
-/
import proofs.«126310_j49684181680758_1_alg».proof.Proof.Gen.KernelIdeal.Skeleton
import Idealize.ShloMosaic.PureOps.Ideal.Laws
import Idealize.ShloMosaic.Lib.Pipeline.Value
import Idealize.ShloMosaic.Lib.ValueIdx

noncomputable section

namespace Cert.Hint

open Cert.KernelIdeal Cert.KernelIdeal.Gen Idealize.ShloMosaic

/-- Entry `k` of the row of the first block that block index `j` reads: row `j 0`. -/
abbrev blkRowA (j : S1024x1024.Idx) (k : Fin 128) : S1024x128.Idx := fun a => match a with
  | ⟨0, _⟩ => ⟨(j 0).val, (j 0).isLt⟩
  | ⟨1, _⟩ => ⟨k.val, k.isLt⟩

/-- Entry `k` of the row of the second block that block index `j` reads: row `j 1`. -/
abbrev blkRowB (j : S1024x1024.Idx) (k : Fin 128) : S1024x128.Idx := fun a => match a with
  | ⟨0, _⟩ => ⟨(j 1).val, (j 1).isLt⟩
  | ⟨1, _⟩ => ⟨k.val, k.isLt⟩

/-- The entry of the [1024,1] column that block index `j` reads: (j 0, 0). -/
abbrev blkCol (j : S1024x1024.Idx) : S1024x1.Idx := fun a => match a with
  | ⟨0, _⟩ => ⟨(j 0).val, (j 0).isLt⟩
  | ⟨1, _⟩ => ⟨0, Nat.one_pos⟩

/-- The entry of the [1,1024] row that block index `j` reads: (0, j 1). -/
abbrev blkRow (j : S1024x1024.Idx) : S1x1024.Idx := fun a => match a with
  | ⟨0, _⟩ => ⟨0, Nat.one_pos⟩
  | ⟨1, _⟩ => ⟨(j 1).val, (j 1).isLt⟩

theorem dotL0 (j : S1024x1024.Idx) (q : dot_S1024x128_S1024x128_S1024x1024_1_1_0_0_n_n.contr.Idx) :
    (dot_S1024x128_S1024x128_S1024x1024_1_1_0_0_n_n.lhsIdx j q 0).val = (j 0).val := by
  unfold DotDims.lhsIdx
  rw [dif_neg (show ¬(0 : Fin S1024x128.rank) ∈ dot_S1024x128_S1024x128_S1024x1024_1_1_0_0_n_n.lhsBatch by decide),
    dif_pos (show (0 : Fin S1024x128.rank) ∈ dot_S1024x128_S1024x128_S1024x1024_1_1_0_0_n_n.lhsNonContracting by decide)]
  rfl

theorem dotL1 (j : S1024x1024.Idx) (q : dot_S1024x128_S1024x128_S1024x1024_1_1_0_0_n_n.contr.Idx) :
    (dot_S1024x128_S1024x128_S1024x1024_1_1_0_0_n_n.lhsIdx j q 1).val = (q ⟨0, by decide⟩).val :=
  dot_S1024x128_S1024x128_S1024x1024_1_1_0_0_n_n.lhsIdx_val_of_single rfl j q

theorem dotR0 (j : S1024x1024.Idx) (q : dot_S1024x128_S1024x128_S1024x1024_1_1_0_0_n_n.contr.Idx) :
    (dot_S1024x128_S1024x128_S1024x1024_1_1_0_0_n_n.rhsIdx j q 0).val = (j 1).val := by
  unfold DotDims.rhsIdx
  rw [dif_neg (show ¬(0 : Fin S1024x128.rank) ∈ dot_S1024x128_S1024x128_S1024x1024_1_1_0_0_n_n.rhsBatch by decide),
    dif_pos (show (0 : Fin S1024x128.rank) ∈ dot_S1024x128_S1024x128_S1024x1024_1_1_0_0_n_n.rhsNonContracting by decide)]
  rfl

theorem dotR1 (j : S1024x1024.Idx) (q : dot_S1024x128_S1024x128_S1024x1024_1_1_0_0_n_n.contr.Idx) :
    (dot_S1024x128_S1024x128_S1024x1024_1_1_0_0_n_n.rhsIdx j q 1).val = (q ⟨0, by decide⟩).val :=
  dot_S1024x128_S1024x128_S1024x1024_1_1_0_0_n_n.rhsIdx_val_of_single rfl j q

/-- The matrix unit's product of two blocks into the zero splat, at block index `j`: rows `j 0` and `j 1` contracted. -/
theorem blockDot_apply (a b : FVec Ideal S1024x128 .bf16) (j : S1024x1024.Idx) :
    FloatOps.matmul dot_S1024x128_S1024x128_S1024x1024_1_1_0_0_n_n none a b (constant S1024x1024 .f32 0x00000000#32) j
      = ∑ k : Fin 128, a (blkRowA j k) * b (blkRowB j k) := by
  rw [Ideal.matmul_constant_zero_apply, ← Equiv.sum_comp (ValueIdx.contrEquiv1 dot_S1024x128_S1024x128_S1024x1024_1_1_0_0_n_n 128 rfl rfl).symm]
  refine Finset.sum_congr rfl fun k _ => ?_
  have hk := ValueIdx.contrEquiv1_symm_val dot_S1024x128_S1024x128_S1024x1024_1_1_0_0_n_n 128 rfl rfl k
  have el : dot_S1024x128_S1024x128_S1024x1024_1_1_0_0_n_n.lhsIdx j ((ValueIdx.contrEquiv1 dot_S1024x128_S1024x128_S1024x1024_1_1_0_0_n_n 128 rfl rfl).symm k) = blkRowA j k := funext fun x => Fin.ext (by
    match x with
    | ⟨0, _⟩ => exact dotL0 _ _
    | ⟨1, _⟩ => exact (dotL1 _ _).trans hk)
  have er : dot_S1024x128_S1024x128_S1024x1024_1_1_0_0_n_n.rhsIdx j ((ValueIdx.contrEquiv1 dot_S1024x128_S1024x128_S1024x1024_1_1_0_0_n_n 128 rfl rfl).symm k) = blkRowB j k := funext fun x => Fin.ext (by
    match x with
    | ⟨0, _⟩ => exact dotR0 _ _
    | ⟨1, _⟩ => exact (dotR1 _ _).trans hk)
  rw [el, er]

/-- A [1024,1] column broadcast over the block reads (j 0, 0). -/
theorem colBroadcast_apply (v : FVec Ideal S1024x1 .f32) (j : S1024x1024.Idx) :
    broadcastTo S1024x1024 (shapeCast S1024x1 v Facts₀.shapeCasts_S1024x1_S1024x1) Facts₀.broadcasts_S1024x1_S1024x1024 j = v (blkCol j) := by
  rw [shapeCast_self]
  exact broadcastTo_apply v Facts₀.broadcasts_S1024x1_S1024x1024 j (blkCol j) (fun a => match a with
    | ⟨0, _⟩ => by show (j 0).val = (if (1024 : Nat) = 1 then 0 else (j 0).val); rw [if_neg (by decide)]
    | ⟨1, _⟩ => by show 0 = (if (1 : Nat) = 1 then 0 else (j 1).val); rw [if_pos rfl])

/-- A [1,1024] row broadcast over the block reads (0, j 1). -/
theorem rowBroadcast_apply (v : FVec Ideal S1x1024 .f32) (j : S1024x1024.Idx) :
    broadcastTo S1024x1024 (shapeCast S1x1024 v Facts₀.shapeCasts_S1x1024_S1x1024) Facts₀.broadcasts_S1x1024_S1024x1024 j = v (blkRow j) := by
  rw [shapeCast_self]
  exact broadcastTo_apply v Facts₀.broadcasts_S1x1024_S1024x1024 j (blkRow j) (fun a => match a with
    | ⟨0, _⟩ => by show 0 = (if (1 : Nat) = 1 then 0 else (j 0).val); rw [if_pos rfl]
    | ⟨1, _⟩ => by show (j 1).val = (if (1024 : Nat) = 1 then 0 else (j 1).val); rw [if_neg (by decide)])

/-- THE PAYLOAD AT AN INDEX: the rows' inner product, scaled by the column's and the row's entries. -/
theorem payload_apply (a b : Vec Ideal S1024x128 .f32) (col : Vec Ideal S1024x1 .f32) (row : Vec Ideal S1x1024 .f32)
    (j : S1024x1024.Idx) :
    k0_pay2 (F := Ideal) a b col row j = (∑ k : Fin 128, a (blkRowA j k) * b (blkRowB j k)) * col (blkCol j) * row (blkRow j) := by
  unfold k0_pay2
  show ((FloatOps.matmul (F := Ideal) dot_S1024x128_S1024x128_S1024x1024_1_1_0_0_n_n none (truncf (F := Ideal) .bf16 a Facts₀.bitsLt_bf16_f32)
        (truncf (F := Ideal) .bf16 b Facts₀.bitsLt_bf16_f32) (constant (F := Ideal) S1024x1024 .f32 0x00000000#32) j : EReal)
      * (broadcastTo S1024x1024 (shapeCast S1024x1 col Facts₀.shapeCasts_S1024x1_S1024x1) Facts₀.broadcasts_S1024x1_S1024x1024 j : EReal))
      * (broadcastTo S1024x1024 (shapeCast S1x1024 row Facts₀.shapeCasts_S1x1024_S1x1024) Facts₀.broadcasts_S1x1024_S1024x1024 j : EReal) = _
  rw [blockDot_apply, colBroadcast_apply, rowBroadcast_apply]
  rfl

end Cert.Hint

end
-- ==== Proof.CosBlocks.lean ====
/-
  The float result array after the run is the cosine matrix in its product form.

  The grid has 4 × 16 points; point (i, j) reads rows 1024·i … of the first matrix, rows 1024·j … of the second, the
  matching 1024 entries of the column and of the row of reciprocal lengths, and writes the 1024 × 1024 block at
  (1024·i, 1024·j) of the result. So block entry (p, q) lands at result index (1024·i + p, 1024·j + q), reads row
  1024·i + p of the first matrix and row 1024·j + q of the second — exactly the rows that result index names —, and the
  64 blocks tile the 4096 × 16384 array: the point covering (r, c) is (r / 1024, c / 1024).
-/
import proofs.«126310_j49684181680758_1_alg».proof.Proof.Gen.KernelIdeal.Value
import proofs.«126310_j49684181680758_1_alg».proof.Proof.HostPrefix
import proofs.«126310_j49684181680758_1_alg».proof.Proof.Payload

noncomputable section

namespace Cert.Hint

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem origin_zero : (![0, 0] : Fin 2 → Nat) = fun _ => 0 := funext fun a => by fin_cases a <;> rfl

/-- How the input windows' blocks move with the float result's block over the grid (decided point by point): the first
    matrix and the column follow the result's row block, the second matrix and the row follow its column block, and
    the unit or full axes stay at block 0. -/
theorem cos_idx_facts : ∀ t : Fin cfg0.N,
    win0_2.index t (0 : Fin 2) = win0_7.index t (0 : Fin 2) ∧ win0_2.index t (1 : Fin 2) = 0
    ∧ win0_3.index t (0 : Fin 2) = win0_7.index t (1 : Fin 2) ∧ win0_3.index t (1 : Fin 2) = 0
    ∧ win0_4.index t (0 : Fin 2) = win0_7.index t (0 : Fin 2) ∧ win0_4.index t (1 : Fin 2) = 0
    ∧ win0_5.index t (0 : Fin 2) = 0 ∧ win0_5.index t (1 : Fin 2) = win0_7.index t (1 : Fin 2)
    ∧ win0_7.index t (0 : Fin 2) ≤ 3 ∧ win0_7.index t (1 : Fin 2) ≤ 15 :=
  (by decide +kernel : ∀ t : Fin grid0.N, _)

/-- Every block of the result is some point's. -/
theorem cos_idx_onto : ∀ (q0 : Fin 4) (q1 : Fin 16), ∃ t : Fin cfg0.N, win0_7.index t = ![q0.val, q1.val] :=
  (by decide +kernel : ∀ (q0 : Fin 4) (q1 : Fin 16), ∃ t : Fin grid0.N, win0_7.index t = ![q0.val, q1.val])

/-! ## The input blocks read where the result's block says -/

/-- Entry `k` of block row `j 0` of the first matrix's block is entry `k` of the row the result index names. -/
theorem read_first (c : Dev nD) (t : Fin cfg0.N) (j : S1024x1024.Idx) (k : Fin 128) :
    iblk m c 2 t (blkRowA j k) = m ((c : Thread nD τ).loc main_arg2) (rowQ (((cfg0.win 7).blk t).view.emb j) k) := by
  show V m c main_arg2 (((cfg0.win 2).blk t).view.emb (blkRowA j k)) = _
  rw [V_main_arg2]
  obtain ⟨e0, e1, -, -, -, -, -, -, -, -⟩ := cos_idx_facts t
  refine congrArg _ (funext fun a => Fin.ext ?_)
  match a with
  | ⟨0, _⟩ => show win0_2.index t (0 : Fin 2) * 1024 + 1 * (j 0).val = win0_7.index t (0 : Fin 2) * 1024 + 1 * (j 0).val; omega
  | ⟨1, _⟩ => show win0_2.index t (1 : Fin 2) * 128 + 1 * k.val = k.val; omega

/-- Entry `k` of block row `j 1` of the second matrix's block is entry `k` of the row the result index names. -/
theorem read_second (c : Dev nD) (t : Fin cfg0.N) (j : S1024x1024.Idx) (k : Fin 128) :
    iblk m c 3 t (blkRowB j k) = m ((c : Thread nD τ).loc main_arg3) (rowP (((cfg0.win 7).blk t).view.emb j) k) := by
  show V m c main_arg3 (((cfg0.win 3).blk t).view.emb (blkRowB j k)) = _
  rw [V_main_arg3]
  obtain ⟨-, -, e2, e3, -, -, -, -, -, -⟩ := cos_idx_facts t
  refine congrArg _ (funext fun a => Fin.ext ?_)
  match a with
  | ⟨0, _⟩ => show win0_3.index t (0 : Fin 2) * 1024 + 1 * (j 1).val = win0_7.index t (1 : Fin 2) * 1024 + 1 * (j 1).val; omega
  | ⟨1, _⟩ => show win0_3.index t (1 : Fin 2) * 128 + 1 * k.val = k.val; omega

/-- The column's entry for block row `j 0` is one over the clipped length of the first matrix's row the result index names. -/
theorem read_col (c : Dev nD) (t : Fin cfg0.N) (j : S1024x1024.Idx) :
    iblk m c 4 t (blkCol j)
      = recip (clipNorm (fun k => m ((c : Thread nD τ).loc main_arg2) (rowQ (((cfg0.win 7).blk t).view.emb j) k))) := by
  show (V m c main_v10 : S4096x1.Idx → EReal) (((cfg0.win 4).blk t).view.emb (blkCol j)) = _
  rw [recip_col_apply]
  obtain ⟨-, -, -, -, e4, e5, -, -, -, -⟩ := cos_idx_facts t
  refine congrArg recip (congrArg clipNorm (funext fun k => congrArg _ (funext fun a => Fin.ext ?_)))
  match a with
  | ⟨0, _⟩ => show win0_4.index t (0 : Fin 2) * 1024 + 1 * (j 0).val = win0_7.index t (0 : Fin 2) * 1024 + 1 * (j 0).val; omega
  | ⟨1, _⟩ => rfl

/-- The row's entry for block column `j 1` is one over the clipped length of the second matrix's row the result index names. -/
theorem read_row (c : Dev nD) (t : Fin cfg0.N) (j : S1024x1024.Idx) :
    iblk m c 5 t (blkRow j)
      = recip (clipNorm (fun k => m ((c : Thread nD τ).loc main_arg3) (rowP (((cfg0.win 7).blk t).view.emb j) k))) := by
  show (V m c main_v13 : S1x16384.Idx → EReal) (((cfg0.win 5).blk t).view.emb (blkRow j)) = _
  rw [recip_row_apply]
  obtain ⟨-, -, -, -, -, -, e6, e7, -, -⟩ := cos_idx_facts t
  refine congrArg recip (congrArg clipNorm (funext fun k => congrArg _ (funext fun a => Fin.ext ?_)))
  match a with
  | ⟨0, _⟩ => show win0_5.index t (1 : Fin 2) * 1024 + 1 * (j 1).val = win0_7.index t (1 : Fin 2) * 1024 + 1 * (j 1).val; omega
  | ⟨1, _⟩ => rfl

/-! ## What a point writes back, the cover, the array -/

/-- WHAT POINT `t` WRITES BACK is block `t` of the cosine matrix (product form) of the two argument matrices. -/
theorem cos_flushed_eq (c : Dev nD) (t : Fin cfg0.N) :
    (dats m 0 c).flushed 7 t = ((cfg0.win 7).blk t).view.read (Elt Ideal)
      (cosProdMat (m ((c : Thread nD τ).loc main_arg2)) (m ((c : Thread nD τ).loc main_arg3))) := by
  rw [Value.flushed7]
  unfold out0_7
  rw [View.canon_unit_zero origin_zero]
  simp only [View.ld_unit_zero (S := S1024x128) origin_zero, View.ld_unit_zero (S := S1024x1) origin_zero,
    View.ld_unit_zero (S := S1x1024) origin_zero]
  funext j
  show k0_pay2 (F := Ideal) (iblk m c 2 t) (iblk m c 3 t) (iblk m c 4 t) (iblk m c 5 t) j
      = cosProd (fun k => m ((c : Thread nD τ).loc main_arg2) (rowQ (((cfg0.win 7).blk t).view.emb j) k))
          (fun k => m ((c : Thread nD τ).loc main_arg3) (rowP (((cfg0.win 7).blk t).view.emb j) k))
  refine (payload_apply (iblk m c 2 t) (iblk m c 3 t) (iblk m c 4 t) (iblk m c 5 t) j).trans ?_
  rw [read_col m c t j, read_row m c t j]
  refine congrArg (fun d => d * _ * _) (Finset.sum_congr rfl fun k _ => ?_)
  rw [read_first m c t j k, read_second m c t j k]

/-- An index of the result is in point `t`'s block iff each coordinate is in the block's range on its axis. -/
theorem cos_mem_blk (t : Fin cfg0.N) (i : S4096x16384.Idx) :
    i ∈ ((cfg0.win 7).blk t).view.set ↔ ∀ a : Fin 2, win0_7.index t a * S1024x1024.size a ≤ (i a).val
      ∧ (i a).val < win0_7.index t a * S1024x1024.size a + S1024x1024.size a := by
  show i ∈ ((View.whole main_v14_1).slice (win0_7.rect t)).set ↔ _
  rw [View.set_slice_whole, Rect.mem_set_unit]
  exact Iff.rfl

/-- Every index of the result lies in the block of the point (r / 1024, c / 1024), which writes back. -/
theorem cos_cover (i : S4096x16384.Idx) :
    ∃ t : Fin cfg0.N, (cfg0.win 7).flush t = true ∧ i ∈ ((cfg0.win 7).blk t).view.set := by
  have hi0 : (i 0).val < 4096 := (i 0).isLt
  have hi1 : (i 1).val < 16384 := (i 1).isLt
  obtain ⟨t, ht⟩ := cos_idx_onto ⟨(i 0).val / 1024, by omega⟩ ⟨(i 1).val / 1024, by omega⟩
  have q0 : win0_7.index t (0 : Fin 2) = (i 0).val / 1024 := congrFun ht 0
  have q1 : win0_7.index t (1 : Fin 2) = (i 1).val / 1024 := congrFun ht 1
  refine ⟨t, flush0_7 t, ?_⟩
  rw [cos_mem_blk]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 1024 ≤ (i 1).val ∧ (i 1).val < win0_7.index t (1 : Fin 2) * 1024 + 1024; omega

/-- THE FLOAT RESULT ARRAY after the run: the cosine matrix, product form, of the two argument matrices. -/
theorem cos_final (c : Dev nD) :
    (dats m 0 c).arrAt 7 cfg0.N
      = cosProdMat (m ((c : Thread nD τ).loc main_arg2)) (m ((c : Thread nD τ).loc main_arg3)) :=
  (dats m 0 c).arrAt_eq_of_cover 7 _ (fun t _ => cos_flushed_eq m c t) cos_cover

end Cert.Hint

end
-- ==== Proof.lean ====
/- The proof of `Cert.Claim`: the three frames, the (empty) idealization ledger, and the equality of the two idealized
   programs' results over the extended reals.

   Both programs compute a match matrix and a cosine-similarity matrix from two vectors of 32-bit words `q` [4096],
   `p` [16384] and two float matrices `x` [4096,128], `y` [16384,128]:
     · integer result (r, c): `1` if `q r = p c`, else `0` — the same comparison on both sides, only laid out differently
       (the kernel recasts the vectors to a column and a row and broadcasts inside each 1024 × 1024 block; the reference
       broadcasts the whole arrays);
     · float result (r, c): with `d = Σₖ x(r,k)·y(c,k)` and the clipped row lengths `a = max (√Σₖ x(r,k)²) ε`,
       `b = max (√Σₖ y(c,k)²) ε`, the kernel forms `d · (1/a) · (1/b)` (the reciprocals taken on the host before the
       launch, the product block by block on the matrix unit, whose narrow-format casts are the identity on extended reals)
       and the reference forms `d / (a · b)`.
   The two float forms are one extended real when `a` and `b` are positive reals, which holds when every entry of `x` and
   `y` is a real number — what the precondition says; with an infinite entry a length would be `+∞` and the forms differ,
   so the precondition is used, and only there. -/
import proofs.«126310_j49684181680758_1_alg».proof.Defs
import proofs.«126310_j49684181680758_1_alg».proof.Proof.Gen.Kernel
import proofs.«126310_j49684181680758_1_alg».proof.Proof.Gen.Kernel.Skeleton
import proofs.«126310_j49684181680758_1_alg».proof.Proof.Gen.Kernel.Launch
import proofs.«126310_j49684181680758_1_alg».proof.Proof.Gen.Kernel.Points
import proofs.«126310_j49684181680758_1_alg».proof.Proof.Gen.Kernel.Frame
import proofs.«126310_j49684181680758_1_alg».proof.Proof.Gen.KernelIdeal
import proofs.«126310_j49684181680758_1_alg».proof.Proof.Gen.KernelIdeal.Skeleton
import proofs.«126310_j49684181680758_1_alg».proof.Proof.Gen.KernelIdeal.Launch
import proofs.«126310_j49684181680758_1_alg».proof.Proof.Gen.KernelIdeal.Points
import proofs.«126310_j49684181680758_1_alg».proof.Proof.Gen.KernelIdeal.Frame
import proofs.«126310_j49684181680758_1_alg».proof.Proof.Gen.ReferenceIdeal
import proofs.«126310_j49684181680758_1_alg».proof.Proof.Gen.Pre_finite_inputs
import proofs.«126310_j49684181680758_1_alg».proof.Proof.Gen.KernelIdeal.Value
import proofs.«126310_j49684181680758_1_alg».proof.Proof.Gen.ReferenceIdeal.Run
import proofs.«126310_j49684181680758_1_alg».proof.Proof.Gen.ReferenceIdeal.Read
import proofs.«126310_j49684181680758_1_alg».proof.Proof.Cosine
import proofs.«126310_j49684181680758_1_alg».proof.Proof.CosineLaw
import proofs.«126310_j49684181680758_1_alg».proof.Proof.Finite
import proofs.«126310_j49684181680758_1_alg».proof.Proof.RefValue
import proofs.«126310_j49684181680758_1_alg».proof.Proof.EqBlocks
import proofs.«126310_j49684181680758_1_alg».proof.Proof.CosBlocks
import Idealize.ShloMosaic.Adequacy
import Idealize.ShloMosaic.Init

noncomputable section

namespace Cert.Proof

open Idealize.ShloMosaic Idealize.SL.Sem Cert.Hint

/-- The word-level kernel runs, faults nowhere and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- For matrices of real numbers the cosine matrix in product form is the cosine matrix in quotient form, entry by entry. -/
theorem cosProdMat_eq_cosQuotMat (x : SQ.Idx → EReal) (y : SP.Idx → EReal)
    (hx : ∀ i, ∃ r : ℝ, x i = (r : EReal)) (hy : ∀ j, ∃ r : ℝ, y j = (r : EReal)) :
    cosProdMat x y = cosQuotMat x y :=
  funext fun i => cosProd_eq_cosQuot _ _ (fun k => hx (rowQ i k)) (fun k => hy (rowP i k))

/-- From memories agreeing on the arguments, with every float entry finite, both idealized programs end with the match
    matrix and the cosine matrix (quotient form) of the arguments. -/
theorem algebraic : Cert.algebraic_KernelIdeal_ReferenceIdeal := by
  intro m ρ m' ρ' hpre hagree
  refine ⟨fun c => eqMat (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => cosQuotMat (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · -- the kernel: each result array is its matrix block by block; the float one is in product form, and the
    -- precondition makes every entry real, so the product form is the quotient form
    refine (θ_run Cert.KernelIdeal.defs _ _).mono (fun r h c => ⟨(h c).1.trans (eq_final m c),
      (h c).2.1.trans ((cos_final m c).trans ?_), (h c).2.2⟩) (Cert.KernelIdeal.Value.run_blocks m ρ)
    obtain ⟨hx, hy⟩ := real_of_finite _ _ _ _ (hpre c)
    exact cosProdMat_eq_cosQuotMat _ _ hx hy
  · -- the reference: its run's two terms are the same matrices of its own arguments, which agree with the kernel's
    refine (θ_run Cert.ReferenceIdeal.defs _ _).mono (fun _ h c => ⟨?_, ?_, (h c).2.2⟩)
      (Cert.ReferenceIdeal.Value.run (F := Ideal) m' ρ')
    · rw [(h c).1, Cert.ReferenceIdeal.Read.val_main_v5_eq, ref_eqMat, (hagree c).1, (hagree c).2.1]
    · rw [(h c).2.1, Cert.ReferenceIdeal.Read.val_main_v18_eq, ref_cosQuotMat, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
